-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S100000 32) (main_arg3 : FVec F S256x64 .f32) (main_arg4 : FVec F S64 .f32) (main_arg5 : FVec F S64x2 .f32) (main_arg6 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg5
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg6 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S10000x256 : Shape := ⟨2, ![10000, 256]⟩
abbrev S10000x64 : Shape := ⟨2, ![10000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩
abbrev S512x2 : Shape := ⟨2, ![512, 2]⟩
abbrev S100000x1 : Shape := ⟨2, ![100000, 1]⟩
abbrev S512 : Shape := ⟨1, ![512]⟩
abbrev S512x1 : Shape := ⟨2, ![512, 1]⟩

abbrev nBuf : Space → Nat
  | .hbm => 142
  | .vmem => 10
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S256x64, .f32⟩
  | 4 => ⟨S64, .f32⟩
  | 5 => ⟨S64x2, .f32⟩
  | 6 => ⟨S2, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x2, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x2, .f32⟩
  | 116 => ⟨S1700000x1, .f32⟩
  | 117 => ⟨S1700000x2, .f32⟩
  | 118 => ⟨S1700000x2, .f32⟩
  | 119 => ⟨S_, .f32⟩
  | 120 => ⟨S100000x2, .f32⟩
  | 121 => ⟨S1700000x1, .i32⟩
  | 122 => ⟨S100000x2, .f32⟩
  | 123 => ⟨S1x2, .f32⟩
  | 124 => ⟨S100000x2, .f32⟩
  | 125 => ⟨S100000x2, .f32⟩
  | 126 => ⟨S_, .f32⟩
  | 127 => ⟨S512x2, .f32⟩
  | _ => ⟨S100000x256, .f32⟩

abbrev hbmTy0_1 (i : Nat) : BufTy := match i % 128 with
  | 0 => ⟨S100000x1, .i32⟩
  | 1 => ⟨S512x2, .f32⟩
  | 2 => ⟨S_, .f32⟩
  | 3 => ⟨S100000, .f32⟩
  | 4 => ⟨S_, .f32⟩
  | 5 => ⟨S512, .f32⟩
  | 6 => ⟨S100000x1, .i32⟩
  | 7 => ⟨S512, .f32⟩
  | 8 => ⟨S_, .f32⟩
  | 9 => ⟨S512, .f32⟩
  | 10 => ⟨S512, .f32⟩
  | 11 => ⟨S512x1, .f32⟩
  | 12 => ⟨S512x2, .f32⟩
  | 13 => ⟨S512x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x2, .f32⟩
  | .local _ .vmem, ⟨8, _⟩ => ⟨S10000x2, .f32⟩
  | .local _ .vmem, ⟨9, _⟩ => ⟨S10000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x256_S10000x256_0_0 : ∀ a, (![0, 0] : Fin 2 → Nat) a + S10000x256.size a ≤ S10000x256.size a
  h_S10000x256 : 0 < S10000x256.numel
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S512x2 : S_.BroadcastsInDim S512x2 (![] : Fin 0 → Fin S512x2.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  dot_S10000x256_S256x64_S10000x64_1_0_0_1_n_n_wf : DotDims.WF S10000x256 S256x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x2_S10000x2_1_0_0_1_n_n_wf : DotDims.WF S10000x64 S64x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  scatter_S512x2_S100000x1_S100000x2_1_0_0_1_wf : ScatterDims.WF S512x2 S100000x1 S100000x2 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2.size a ≤ S64x2.size a
  hwx1_1 : ∀ i : grid1.Coords, EltTy.bits .f32 = 32 ∨ (Rect.block (s := S64x2) S64x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def scatter_S512x2_S100000x1_S100000x2_1_0_0_1 : ScatterDims S512x2 S100000x1 S100000x2 where
  updateWindowDims := [1]
  insertedWindowDims := [0]
  scatterDimsToOperandDims := [0]
  indexVectorDim := 1
  wf := scatter_S512x2_S100000x1_S100000x2_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S512x2 : Shape := ⟨2, ![512, 2]⟩
abbrev S100000x1 : Shape := ⟨2, ![100000, 1]⟩
abbrev S512 : Shape := ⟨1, ![512]⟩
abbrev S512x1 : Shape := ⟨2, ![512, 1]⟩

abbrev nBuf : Space → Nat
  | .hbm => 142
  | .vmem => 0
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S256x64, .f32⟩
  | 4 => ⟨S64, .f32⟩
  | 5 => ⟨S64x2, .f32⟩
  | 6 => ⟨S2, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x2, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x2, .f32⟩
  | 116 => ⟨S1700000x1, .f32⟩
  | 117 => ⟨S1700000x2, .f32⟩
  | 118 => ⟨S1700000x2, .f32⟩
  | 119 => ⟨S_, .f32⟩
  | 120 => ⟨S100000x2, .f32⟩
  | 121 => ⟨S1700000x1, .i32⟩
  | 122 => ⟨S100000x2, .f32⟩
  | 123 => ⟨S1x2, .f32⟩
  | 124 => ⟨S100000x2, .f32⟩
  | 125 => ⟨S100000x2, .f32⟩
  | 126 => ⟨S_, .f32⟩
  | 127 => ⟨S512x2, .f32⟩
  | _ => ⟨S100000x256, .f32⟩

abbrev hbmTy0_1 (i : Nat) : BufTy := match i % 128 with
  | 0 => ⟨S100000x1, .i32⟩
  | 1 => ⟨S512x2, .f32⟩
  | 2 => ⟨S_, .f32⟩
  | 3 => ⟨S100000, .f32⟩
  | 4 => ⟨S_, .f32⟩
  | 5 => ⟨S512, .f32⟩
  | 6 => ⟨S100000x1, .i32⟩
  | 7 => ⟨S512, .f32⟩
  | 8 => ⟨S_, .f32⟩
  | 9 => ⟨S512, .f32⟩
  | 10 => ⟨S512, .f32⟩
  | 11 => ⟨S512x1, .f32⟩
  | 12 => ⟨S512x2, .f32⟩
  | 13 => ⟨S512x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S512x2 : S_.BroadcastsInDim S512x2 (![] : Fin 0 → Fin S512x2.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  scatter_S512x2_S100000x1_S100000x2_1_0_0_1_wf : ScatterDims.WF S512x2 S100000x1 S100000x2 [1] [0] [0] 1
  scatter_S512_S100000x1_S100000_n_0_0_1_wf : ScatterDims.WF S512 S100000x1 S100000 [] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def scatter_S512x2_S100000x1_S100000x2_1_0_0_1 : ScatterDims S512x2 S100000x1 S100000x2 where
  updateWindowDims := [1]
  insertedWindowDims := [0]
  scatterDimsToOperandDims := [0]
  indexVectorDim := 1
  wf := scatter_S512x2_S100000x1_S100000x2_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KernelRun.lean ====
/-
  The idealized kernel's run, read at every buffer.

  @main is ten segments: a stretch of host operations, the first matrix-product region, four stretches (the
  degree normalisation, the gather / scale / scatter-add aggregation, the bias and the clamp at zero), the second
  matrix-product region, and three more stretches ending in the mean over each graph. The buffer contents at each
  boundary are a fold from the launch memory: a stretch applies its operations, a region replaces its three arrays
  by what its write-backs leave. Every weakly fair execution terminates without a fault, and in the final state every
  buffer that is not scoped to a region holds the fold's last value. The frame claim reads only the argument
  arrays off that final state; here the read is left to the caller, so that the result array can be read too.
-/
import proofs.«173720_j30021821399451_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, in a state
    where every unscoped buffer of every core holds the last boundary's contents `W10`; any property `Q` of final
    states that follows from that holds of every final state. -/
theorem run_read {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

end Cert.KernelIdeal.Run

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«173720_j30021821399451_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«173720_j30021821399451_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.RegionProducts.lean ====
/-
  What each matrix-product region leaves in its output array, for any contents the region is entered with.

  A region has a grid of ten points. At point t the body loads rows 10000·t … 10000·t + 9999 of the left operand's
  array and the whole right operand, multiplies them into an accumulator of zeros, and stores the 10000-row result,
  which the pipeline writes back to the same rows of the output array. An entry of a product depends on one row of
  the left operand only, so what point t writes back is rows 10000·t … of the product of the two WHOLE arrays; the
  ten blocks cover the output's 100000 rows, so after the region the output array is that whole product. Sums on the
  extended reals are taken in any order and nothing is cancelled or distributed, so no finiteness is used.
-/
import proofs.«173720_j30021821399451_1_alg».proof.Proof.Gen.KernelIdeal.Frame
import proofs.«173720_j30021821399451_1_alg».proof.Proof.LibMatProd
import proofs.«173720_j30021821399451_1_alg».proof.Proof.LibRowBlocks
import Idealize.ShloMosaic.Lib.Pipeline.Value
import Idealize.ShloMosaic.Lib.ValueIdx

set_option maxRecDepth 16384

noncomputable section

namespace Cert.KernelIdeal.Products

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.MatProd Cert.Lib.RowBlocks

/-! ## The bodies' arithmetic -/

/-- The first body's stored value is the product of its two loaded blocks. -/
theorem pay0_eq (x0 : Vec Ideal S10000x256 .f32) (x1 : Vec Ideal S256x64 .f32) :
    k0_pay1 (F := Ideal) x0 x1 = matProd x0 x1 :=
  matmul_zero_eq_matProd dot_S10000x256_S256x64_S10000x64_1_0_0_1_n_n rfl rfl rfl rfl rfl rfl none x0 x1

/-- The second body re-shapes its left block to the shape it already has, then multiplies: again the product of the
    two loaded blocks. -/
theorem pay1_eq (x0 : Vec Ideal S10000x64 .f32) (x1 : Vec Ideal S64x2 .f32) :
    k1_pay1 (F := Ideal) x0 x1 = matProd x0 x1 := by
  unfold k1_pay1
  rw [shapeCast_self]
  exact matmul_zero_eq_matProd dot_S10000x64_S64x2_S10000x2_1_0_0_1_n_n rfl rfl rfl rfl rfl rfl none x0 x1

/-! ## The index maps, decided over the ten points -/

/-- First region: the left operand's and the output's blocks are block-row t, column-block 0; the right operand's
    one block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Second region: the same layout. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## The first region -/

section Region0

variable (V : (c : Dev nD) → (b : Ref sig .tc) → Buf (Elt Ideal) ((c : Thread nD τ).loc b))

/-- One entry of a stored block against the whole product, the loaded blocks and the two arrays as variables: if
    the left block's row (y 0) is the left array's row (i 0), the right block is the right array, and y and i have the
    same column, the body's value at y is the whole product at i. -/
theorem block0 (A : S100000x256.Idx → EReal) (B : S256x64.Idx → EReal)
    (A' : Vec Ideal S10000x256 .f32) (B' : Vec Ideal S256x64 .f32) (y : S10000x64.Idx) (i : S100000x64.Idx)
    (hA : ∀ k : Fin 256, A' (ix2 (⟨(y 0).val, idx2_lt0 y⟩ : Fin 10000) k) = A (ix2 (⟨(i 0).val, idx2_lt0 i⟩ : Fin 100000) k))
    (hB : B' = B) (hcol : (y 1).val = (i 1).val) :
    k0_pay1 (F := Ideal) A' B' y = matProd A B i := by
  subst hB
  rw [pay0_eq]
  exact matProd_rows A A' B' y i hA hcol

/-- What point t writes back to the output array is block t of the product of the two whole operand arrays as the
    region finds them. -/
theorem flushed0 (c : Dev nD) (t : Fin cfg0.N) :
    (dat0 V c).flushed 2 t
      = ((cfg0.win 2).blk t).view.read (Elt Ideal)
          (matProd (m := 100000) (k := 256) (n := 64) (V c main_arg0) (V c main_arg3)) := by
  show (cfg0.win 2).cut (grid0.coords t) ((dat0 V c).after 2 t) = _
  rw [after0_2]
  unfold out0_2
  rw [View.canon_unit_zero zero_offset2]
  simp only [View.ld_unit_zero (S := S10000x256) zero_offset2, View.ld_unit_zero (S := S256x64) zero_offset2]
  obtain ⟨e00, e01, e10, e11, e20, e21⟩ := idx0 t
  funext y
  show k0_pay1 (F := Ideal) (iblk0 V c 0 t) (iblk0 V c 1 t) y
      = matProd (m := 100000) (k := 256) (n := 64) (V c main_arg0) (V c main_arg3) (((cfg0.win 2).blk t).view.emb y)
  refine block0 _ _ _ _ y _ (fun k => ?_) ?_ ?_
  · show V c main_arg0 (((cfg0.win 0).blk t).view.emb (ix2 _ k)) = V c main_arg0 (ix2 _ k)
    refine congrArg _ (funext fun a => Fin.ext ?_)
    match a with
    | ⟨0, _⟩ =>
      show win0_0.index t (0 : Fin 2) * 10000 + 1 * (y 0).val = win0_2.index t (0 : Fin 2) * 10000 + 1 * (y 0).val
      omega
    | ⟨1, _⟩ =>
      show win0_0.index t (1 : Fin 2) * 256 + 1 * k.val = k.val
      omega
  · funext j
    show V c main_arg3 (((cfg0.win 1).blk t).view.emb j) = V c main_arg3 j
    refine congrArg _ (funext fun a => Fin.ext ?_)
    match a with
    | ⟨0, _⟩ =>
      show win0_1.index t (0 : Fin 2) * 256 + 1 * (j 0).val = (j 0).val
      omega
    | ⟨1, _⟩ =>
      show win0_1.index t (1 : Fin 2) * 64 + 1 * (j 1).val = (j 1).val
      omega
  · show (y 1).val = win0_2.index t (1 : Fin 2) * 64 + 1 * (y 1).val
    omega

/-- An index of the output array lies in point t's block iff each coordinate lies in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- Row r of the output lies in the block of point r / 10000: the ten blocks cover the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by show _ < grid0.N; rw [N_0]; omega
  obtain ⟨-, -, -, -, e20, e21⟩ := idx0 ⟨(i 0).val / 10000, hN⟩
  have e20' : win0_2.index ⟨(i 0).val / 10000, hN⟩ (0 : Fin 2) = (i 0).val / 10000 := e20
  refine ⟨⟨(i 0).val / 10000, hN⟩, flush0_2 _, ?_⟩
  rw [mem_blk0]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    omega

/-- After the first region its output array is the product of the two whole operand arrays as the region found them. -/
theorem final0 (c : Dev nD) :
    (dat0 V c).arrAt 2 cfg0.N = matProd (m := 100000) (k := 256) (n := 64) (V c main_arg0) (V c main_arg3) :=
  (dat0 V c).arrAt_eq_of_cover 2 _ (fun t _ => flushed0 V c t) cover0

end Region0

/-! ## The second region -/

section Region1

variable (V : (c : Dev nD) → (b : Ref sig .tc) → Buf (Elt Ideal) ((c : Thread nD τ).loc b))

/-- One entry of a stored block against the whole product, as for the first region. -/
theorem block1 (A : S100000x64.Idx → EReal) (B : S64x2.Idx → EReal)
    (A' : Vec Ideal S10000x64 .f32) (B' : Vec Ideal S64x2 .f32) (y : S10000x2.Idx) (i : S100000x2.Idx)
    (hA : ∀ k : Fin 64, A' (ix2 (⟨(y 0).val, idx2_lt0 y⟩ : Fin 10000) k) = A (ix2 (⟨(i 0).val, idx2_lt0 i⟩ : Fin 100000) k))
    (hB : B' = B) (hcol : (y 1).val = (i 1).val) :
    k1_pay1 (F := Ideal) A' B' y = matProd A B i := by
  subst hB
  rw [pay1_eq]
  exact matProd_rows A A' B' y i hA hcol

/-- What point t writes back to the output array is block t of the product of the two whole operand arrays as the
    region finds them. -/
theorem flushed1 (c : Dev nD) (t : Fin cfg1.N) :
    (dat1 V c).flushed 2 t
      = ((cfg1.win 2).blk t).view.read (Elt Ideal)
          (matProd (m := 100000) (k := 64) (n := 2) (V c main_v47) (V c main_arg5)) := by
  show (cfg1.win 2).cut (grid1.coords t) ((dat1 V c).after 2 t) = _
  rw [after1_2]
  unfold out1_2
  rw [View.canon_unit_zero zero_offset2]
  simp only [View.ld_unit_zero (S := S10000x64) zero_offset2, View.ld_unit_zero (S := S64x2) zero_offset2]
  obtain ⟨e00, e01, e10, e11, e20, e21⟩ := idx1 t
  funext y
  show k1_pay1 (F := Ideal) (iblk1 V c 0 t) (iblk1 V c 1 t) y
      = matProd (m := 100000) (k := 64) (n := 2) (V c main_v47) (V c main_arg5) (((cfg1.win 2).blk t).view.emb y)
  refine block1 _ _ _ _ y _ (fun k => ?_) ?_ ?_
  · show V c main_v47 (((cfg1.win 0).blk t).view.emb (ix2 _ k)) = V c main_v47 (ix2 _ k)
    refine congrArg _ (funext fun a => Fin.ext ?_)
    match a with
    | ⟨0, _⟩ =>
      show win1_0.index t (0 : Fin 2) * 10000 + 1 * (y 0).val = win1_2.index t (0 : Fin 2) * 10000 + 1 * (y 0).val
      omega
    | ⟨1, _⟩ =>
      show win1_0.index t (1 : Fin 2) * 64 + 1 * k.val = k.val
      omega
  · funext j
    show V c main_arg5 (((cfg1.win 1).blk t).view.emb j) = V c main_arg5 j
    refine congrArg _ (funext fun a => Fin.ext ?_)
    match a with
    | ⟨0, _⟩ =>
      show win1_1.index t (0 : Fin 2) * 64 + 1 * (j 0).val = (j 0).val
      omega
    | ⟨1, _⟩ =>
      show win1_1.index t (1 : Fin 2) * 2 + 1 * (j 1).val = (j 1).val
      omega
  · show (y 1).val = win1_2.index t (1 : Fin 2) * 2 + 1 * (y 1).val
    omega

/-- An index of the output array lies in point t's block iff each coordinate lies in the block's range on its axis. -/
theorem mem_blk1 (t : Fin cfg1.N) (i : S100000x2.Idx) :
    i ∈ ((cfg1.win 2).blk t).view.set ↔ ∀ a : Fin 2, win1_2.index t a * S10000x2.size a ≤ (i a).val
      ∧ (i a).val < win1_2.index t a * S10000x2.size a + S10000x2.size a := by
  show i ∈ ((View.whole main_v48).slice (win1_2.rect t)).set ↔ _
  rw [View.set_slice_whole, Rect.mem_set_unit]
  exact Iff.rfl

/-- Row r of the output lies in the block of point r / 10000: the ten blocks cover the array. -/
theorem cover1 (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  have hN : (i 0).val / 10000 < cfg1.N := by show _ < grid1.N; rw [N_1]; omega
  obtain ⟨-, -, -, -, e20, e21⟩ := idx1 ⟨(i 0).val / 10000, hN⟩
  have e20' : win1_2.index ⟨(i 0).val / 10000, hN⟩ (0 : Fin 2) = (i 0).val / 10000 := e20
  refine ⟨⟨(i 0).val / 10000, hN⟩, flush1_2 _, ?_⟩
  rw [mem_blk1]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    omega
  | ⟨1, _⟩ =>
    show win1_2.index ⟨(i 0).val / 10000, hN⟩ (1 : Fin 2) * 2 ≤ (i 1).val
      ∧ (i 1).val < win1_2.index ⟨(i 0).val / 10000, hN⟩ (1 : Fin 2) * 2 + 2
    omega

/-- After the second region its output array is the product of the two whole operand arrays as the region found them. -/
theorem final1 (c : Dev nD) :
    (dat1 V c).arrAt 2 cfg1.N = matProd (m := 100000) (k := 64) (n := 2) (V c main_v47) (V c main_arg5) :=
  (dat1 V c).arrAt_eq_of_cover 2 _ (fun t _ => flushed1 V c t) cover1

end Region1

end Cert.KernelIdeal.Products

end
-- ==== Proof.KernelFold.lean ====
/-
  The two matrix-product regions, seen from the host program around them.

  The reference computes %4 = %arg0 · %arg3 and %48 = %47 · %arg5 by one host dot_general each. The kernel computes
  them block by block in two regions. On the extended reals a region leaves in its output array the whole product of
  its two operand arrays, which is what the host's dot_general of the same arrays is (both are, entry by entry, the
  sum over the contracted index of the products of the operands' entries); it leaves its two operand arrays as they
  were and touches no other buffer. So the buffer contents when a region is left are the contents when it was
  entered after that ONE host operation — and the kernel's fold through @main is a fold of host operations only.
-/
import proofs.«173720_j30021821399451_1_alg».proof.Proof.Gen.KernelIdeal.Frame
import proofs.«173720_j30021821399451_1_alg».proof.Proof.Gen.ReferenceIdeal
import proofs.«173720_j30021821399451_1_alg».proof.Proof.RegionProducts
import proofs.«173720_j30021821399451_1_alg».proof.Proof.LibMatProd
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem
open Cert.Lib.MatProd

/-! ## The host's products are the whole products -/

theorem dot0_eq (A : FVec Ideal S100000x256 .f32) (B : FVec Ideal S256x64 .f32) :
    Host.dotGeneral (F := Ideal) Cert.ReferenceIdeal.dot_S100000x256_S256x64_S100000x64_1_0_0_1_n_n none A B
      = matProd (m := 100000) (k := 256) (n := 64) A B :=
  dotGeneral_eq_matProd Cert.ReferenceIdeal.dot_S100000x256_S256x64_S100000x64_1_0_0_1_n_n rfl rfl rfl rfl rfl rfl none .single A B

theorem dot1_eq (A : FVec Ideal S100000x64 .f32) (B : FVec Ideal S64x2 .f32) :
    Host.dotGeneral (F := Ideal) Cert.ReferenceIdeal.dot_S100000x64_S64x2_S100000x2_1_0_0_1_n_n none A B
      = matProd (m := 100000) (k := 64) (n := 2) A B :=
  dotGeneral_eq_matProd Cert.ReferenceIdeal.dot_S100000x64_S64x2_S100000x2_1_0_0_1_n_n rfl rfl rfl rfl rfl rfl none .single A B

/-! ## The regions as host operations -/

/-- %4 = %arg0 · %arg3, the reference's first product, on the kernel's buffers. -/
abbrev dotOp0 : HloOp τ sig (Elt Ideal) :=
  StableHlo.binary main_arg0 main_arg3 main_v4
    ((fun l r => Host.dotGeneral (F := Ideal) (φ₁ := .f32) (φ₂ := .f32) Cert.ReferenceIdeal.dot_S100000x256_S256x64_S100000x64_1_0_0_1_n_n none l r) :
      (⟨S100000x256, .f32⟩ : BufTy).Contents (Elt Ideal) → (⟨S256x64, .f32⟩ : BufTy).Contents (Elt Ideal)
        → (⟨S100000x64, .f32⟩ : BufTy).Contents (Elt Ideal))

/-- %48 = %47 · %arg5, the reference's second product, on the kernel's buffers. -/
abbrev dotOp1 : HloOp τ sig (Elt Ideal) :=
  StableHlo.binary main_v47 main_arg5 main_v48
    ((fun l r => Host.dotGeneral (F := Ideal) (φ₁ := .f32) (φ₂ := .f32) Cert.ReferenceIdeal.dot_S100000x64_S64x2_S100000x2_1_0_0_1_n_n none l r) :
      (⟨S100000x64, .f32⟩ : BufTy).Contents (Elt Ideal) → (⟨S64x2, .f32⟩ : BufTy).Contents (Elt Ideal)
        → (⟨S100000x2, .f32⟩ : BufTy).Contents (Elt Ideal))

/-- Each stand-in operation writes its result buffer only, and leaves there the host's product of its two operand
    buffers. -/
theorem writes0 : (dotOp0 : HloOp τ sig (Elt Ideal)).writes = {Proc.devRef .tc main_v4} := rfl
theorem writes1 : (dotOp1 : HloOp τ sig (Elt Ideal)).writes = {Proc.devRef .tc main_v48} := rfl

theorem result0 (X : Valuation τ sig (Elt Ideal)) :
    dotOp0.result X (Proc.devRef .tc main_v4)
      = Host.dotGeneral (F := Ideal) (φ₁ := .f32) (φ₂ := .f32) Cert.ReferenceIdeal.dot_S100000x256_S256x64_S100000x64_1_0_0_1_n_n none
          (X (Proc.devRef .tc main_arg0)) (X (Proc.devRef .tc main_arg3)) :=
  StableHlo.binary_result main_arg0 main_arg3 main_v4 _ _ _ _ X

theorem result1 (X : Valuation τ sig (Elt Ideal)) :
    dotOp1.result X (Proc.devRef .tc main_v48)
      = Host.dotGeneral (F := Ideal) (φ₁ := .f32) (φ₂ := .f32) Cert.ReferenceIdeal.dot_S100000x64_S64x2_S100000x2_1_0_0_1_n_n none
          (X (Proc.devRef .tc main_v47)) (X (Proc.devRef .tc main_arg5)) :=
  StableHlo.binary_result main_v47 main_arg5 main_v48 _ _ _ _ X

variable (m : (ℓ : Loc nD τ sig) → Buf (Elt Ideal) ℓ) (ρ : Dev nD → PrngReg)

/-- The contents when the first region is left are the contents when it was entered after the host's product. -/
theorem exit0 (c : Dev nD) : W2 m ρ c = dotOp0.result (W1 m ρ c) := by
  funext b
  by_cases h : ∃ w : Fin 3, Proc.devRef .tc (Pipeline.arrRef spec0 w) = b
  · obtain ⟨w, rfl⟩ := h
    match w with
    | ⟨0, _⟩ =>
      refine ((W2_arr m ρ c 0).trans (((dat0 (V1 m ρ) c).arrAt_in 0 rfl _).trans (A_eq0 (V1 m ρ) c 0))).trans ?_
      exact (HloOp.result_of_not_mem dotOp0 (W1 m ρ c) (b := Proc.devRef .tc main_arg0)
        (by rw [writes0, Finset.mem_singleton]; exact StableHlo.devRef_ne_of_ne (by decide))).symm
    | ⟨1, _⟩ =>
      refine ((W2_arr m ρ c 1).trans (((dat0 (V1 m ρ) c).arrAt_in 1 rfl _).trans (A_eq0 (V1 m ρ) c 1))).trans ?_
      exact (HloOp.result_of_not_mem dotOp0 (W1 m ρ c) (b := Proc.devRef .tc main_arg3)
        (by rw [writes0, Finset.mem_singleton]; exact StableHlo.devRef_ne_of_ne (by decide))).symm
    | ⟨2, _⟩ =>
      refine ((W2_arr m ρ c 2).trans (Products.final0 (V1 m ρ) c)).trans ?_
      refine (dot0_eq _ _).symm.trans ?_
      exact (result0 (W1 m ρ c)).symm
  · have hb : b ∉ (dotOp0 : HloOp τ sig (Elt Ideal)).writes := by
      rw [writes0, Finset.mem_singleton]
      exact fun e => h ⟨2, e.symm⟩
    rw [HloOp.result_of_not_mem dotOp0 (W1 m ρ c) hb]
    unfold W2 Pipeline.withArrays
    rw [dif_neg h]

/-- The contents when the second region is left are the contents when it was entered after the host's product. -/
theorem exit1 (c : Dev nD) : W7 m ρ c = dotOp1.result (W6 m ρ c) := by
  funext b
  by_cases h : ∃ w : Fin 3, Proc.devRef .tc (Pipeline.arrRef spec1 w) = b
  · obtain ⟨w, rfl⟩ := h
    match w with
    | ⟨0, _⟩ =>
      refine ((W7_arr m ρ c 0).trans (((dat1 (V6 m ρ) c).arrAt_in 0 rfl _).trans (A_eq1 (V6 m ρ) c 0))).trans ?_
      exact (HloOp.result_of_not_mem dotOp1 (W6 m ρ c) (b := Proc.devRef .tc main_v47)
        (by rw [writes1, Finset.mem_singleton]; exact StableHlo.devRef_ne_of_ne (by decide))).symm
    | ⟨1, _⟩ =>
      refine ((W7_arr m ρ c 1).trans (((dat1 (V6 m ρ) c).arrAt_in 1 rfl _).trans (A_eq1 (V6 m ρ) c 1))).trans ?_
      exact (HloOp.result_of_not_mem dotOp1 (W6 m ρ c) (b := Proc.devRef .tc main_arg5)
        (by rw [writes1, Finset.mem_singleton]; exact StableHlo.devRef_ne_of_ne (by decide))).symm
    | ⟨2, _⟩ =>
      refine ((W7_arr m ρ c 2).trans (Products.final1 (V6 m ρ) c)).trans ?_
      refine (dot1_eq _ _).symm.trans ?_
      exact (result1 (W6 m ρ c)).symm
  · have hb : b ∉ (dotOp1 : HloOp τ sig (Elt Ideal)).writes := by
      rw [writes1, Finset.mem_singleton]
      exact fun e => h ⟨2, e.symm⟩
    rw [HloOp.result_of_not_mem dotOp1 (W6 m ρ c) hb]
    unfold W7 Pipeline.withArrays
    rw [dif_neg h]

end Cert.KernelIdeal.Fold

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.KernelResult.lean ====
/-
  The kernel's result is the reference's result.

  With each region replaced by the host product it computes, the kernel's fold through @main applies, in the
  reference's order, the reference's own host operations: the two edge rows sliced out of the edge list and extended
  by the self-loops, the degree count and its inverse square root where the degree is positive, the gather of the
  transformed rows, their scaling, the scatter-add back to the nodes, the bias, the clamp at zero after the first
  layer, and at the end the sum over each graph divided by the larger of its node count and one. Reading the fold at
  the result buffer gives these operations composed over the argument arrays; the reference's run gives the same
  composition. None of the shared operations is opened: gathers, scatter-adds and the rest stay as they are printed,
  applied on both sides to the same arguments, and the only place where the programs differ — the two products — has
  been settled array by array before.
-/
import proofs.«173720_j30021821399451_1_alg».proof.Proof.KernelFold
import proofs.«173720_j30021821399451_1_alg».proof.Proof.RefRun
import proofs.«173720_j30021821399451_1_alg».proof.Proof.LibConcatCongr
import proofs.«173720_j30021821399451_1_alg».proof.Proof.LibTypedRefs
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

/-! ## Typed references at literal buffers

An outlined function's operations carry their operands from the buffer's own type to the value's type and their
result back. At a literal buffer the two types are the same, and the carrying is the identity. -/

theorem ofBuf_main_cst_2 (h1 : (main_cst_2 : Ref sig .tc).ty = ⟨S_, .f32⟩) (h2 h3) (v : (⟨S_, .f32⟩ : BufTy).Contents (Elt Ideal)) :
    (TRef.ofBuf (⟨main_cst_2, h1, h2, h3⟩ : TRef sig ⟨S_, .f32⟩) v : (⟨S_, .f32⟩ : BufTy).Contents (Elt Ideal)) = v := rfl
theorem ofBuf_main_v13 (h1 : (main_v13 : Ref sig .tc).ty = ⟨S100000, .i1⟩) (h2 h3) (v : (⟨S100000, .i1⟩ : BufTy).Contents (Elt Ideal)) :
    (TRef.ofBuf (⟨main_v13, h1, h2, h3⟩ : TRef sig ⟨S100000, .i1⟩) v : (⟨S100000, .i1⟩ : BufTy).Contents (Elt Ideal)) = v := rfl
theorem ofBuf_main_v14 (h1 : (main_v14 : Ref sig .tc).ty = ⟨S100000, .f32⟩) (h2 h3) (v : (⟨S100000, .f32⟩ : BufTy).Contents (Elt Ideal)) :
    (TRef.ofBuf (⟨main_v14, h1, h2, h3⟩ : TRef sig ⟨S100000, .f32⟩) v : (⟨S100000, .f32⟩ : BufTy).Contents (Elt Ideal)) = v := rfl
theorem ofBuf_main_v46 (h1 : (main_v46 : Ref sig .tc).ty = ⟨S100000x64, .f32⟩) (h2 h3) (v : (⟨S100000x64, .f32⟩ : BufTy).Contents (Elt Ideal)) :
    (TRef.ofBuf (⟨main_v46, h1, h2, h3⟩ : TRef sig ⟨S100000x64, .f32⟩) v : (⟨S100000x64, .f32⟩ : BufTy).Contents (Elt Ideal)) = v := rfl
theorem ofBuf_main_cst_12 (h1 : (main_cst_12 : Ref sig .tc).ty = ⟨S_, .f32⟩) (h2 h3) (v : (⟨S_, .f32⟩ : BufTy).Contents (Elt Ideal)) :
    (TRef.ofBuf (⟨main_cst_12, h1, h2, h3⟩ : TRef sig ⟨S_, .f32⟩) v : (⟨S_, .f32⟩ : BufTy).Contents (Elt Ideal)) = v := rfl
theorem ofBuf_main_v57 (h1 : (main_v57 : Ref sig .tc).ty = ⟨S100000, .i1⟩) (h2 h3) (v : (⟨S100000, .i1⟩ : BufTy).Contents (Elt Ideal)) :
    (TRef.ofBuf (⟨main_v57, h1, h2, h3⟩ : TRef sig ⟨S100000, .i1⟩) v : (⟨S100000, .i1⟩ : BufTy).Contents (Elt Ideal)) = v := rfl
theorem ofBuf_main_v58 (h1 : (main_v58 : Ref sig .tc).ty = ⟨S100000, .f32⟩) (h2 h3) (v : (⟨S100000, .f32⟩ : BufTy).Contents (Elt Ideal)) :
    (TRef.ofBuf (⟨main_v58, h1, h2, h3⟩ : TRef sig ⟨S100000, .f32⟩) v : (⟨S100000, .f32⟩ : BufTy).Contents (Elt Ideal)) = v := rfl
theorem toBuf_main_v15 (h1 : (main_v15 : Ref sig .tc).ty = ⟨S100000, .f32⟩) (h2 h3) (v : (⟨S100000, .f32⟩ : BufTy).Contents (Elt Ideal)) :
    (TRef.toBuf (⟨main_v15, h1, h2, h3⟩ : TRef sig ⟨S100000, .f32⟩) v : (⟨S100000, .f32⟩ : BufTy).Contents (Elt Ideal)) = v := rfl
theorem toBuf_main_v47 (h1 : (main_v47 : Ref sig .tc).ty = ⟨S100000x64, .f32⟩) (h2 h3) (v : (⟨S100000x64, .f32⟩ : BufTy).Contents (Elt Ideal)) :
    (TRef.toBuf (⟨main_v47, h1, h2, h3⟩ : TRef sig ⟨S100000x64, .f32⟩) v : (⟨S100000x64, .f32⟩ : BufTy).Contents (Elt Ideal)) = v := rfl
theorem toBuf_main_v59 (h1 : (main_v59 : Ref sig .tc).ty = ⟨S100000, .f32⟩) (h2 h3) (v : (⟨S100000, .f32⟩ : BufTy).Contents (Elt Ideal)) :
    (TRef.toBuf (⟨main_v59, h1, h2, h3⟩ : TRef sig ⟨S100000, .f32⟩) v : (⟨S100000, .f32⟩ : BufTy).Contents (Elt Ideal)) = v := rfl

variable (m : (ℓ : Loc nD τ sig) → Buf (Elt Ideal) ℓ) (ρ : Dev nD → PrngReg)

attribute [local congr] Cert.Lib.ConcatCongr.concatenate_pair_congr

set_option maxHeartbeats 64000000 in
/-- The last boundary's contents at the result buffer are the reference's composed term, for a reference memory
    that agrees with the kernel's on the seven arguments. -/
theorem result_eq (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W10 m ρ c (Proc.devRef .tc main_v102) = Cert.ReferenceIdeal.ValueP.res_main_v102 m' c := by
  unfold Cert.ReferenceIdeal.ValueP.res_main_v102
  simp only [h0, h1, h2, h3, h4, h5, h6]
  show after hostOps2_2 (after hostOps2_1 (after hostOps2 (W7 m ρ c))) (Proc.devRef .tc main_v102) = _
  rw [Fold.exit1 m ρ c]
  show after hostOps2_2 (after hostOps2_1 (after hostOps2 (Fold.dotOp1.result
    (after hostOps1_3 (after hostOps1_2 (after hostOps1_1 (after hostOps1 (W2 m ρ c)))))))) (Proc.devRef .tc main_v102) = _
  rw [Fold.exit0 m ρ c]
  show after hostOps2_2 (after hostOps2_1 (after hostOps2 (Fold.dotOp1.result
    (after hostOps1_3 (after hostOps1_2 (after hostOps1_1 (after hostOps1 (Fold.dotOp0.result
      (after hostOps0 (W0 m ρ c)))))))))) (Proc.devRef .tc main_v102) = _
  after_results_simp
  simp only [Cert.Lib.TypedRefs.ofBuf_toBuf, ofBuf_main_cst_2, ofBuf_main_v13, ofBuf_main_v14, ofBuf_main_v46, ofBuf_main_cst_12, ofBuf_main_v57, ofBuf_main_v58, toBuf_main_v15, toBuf_main_v47, toBuf_main_v59]
  rfl

end Cert.KernelIdeal.Result

end
-- ==== Proof.lean ====
/-
  A two-layer graph convolution with a mean over each graph, against its plain reference.

  Both programs compute, for node features x (100000 × 256), an edge list, a graph id per node, and weights and biases
  W1, b1, W2, b2:  h1 = max(Â (x · W1) + b1, 0),  h2 = Â (h1 · W2) + b2,  and per graph the sum of h2 over its nodes
  divided by the larger of its node count and one — where Â gathers each edge's (and each self-loop's) source row,
  scales it by the inverse square roots of the two end points' degrees (0 where a degree is not positive) and
  scatter-adds it to the destination row. The two programs are the same host operations in the same order, with the
  same constants, except for the two products x · W1 and h1 · W2: the reference takes each as one host dot_general, the
  kernel computes each in a region of ten grid points, point t multiplying rows 10000·t … 10000·t + 9999 of the left
  operand by the whole right operand into an accumulator of zeros and writing the block back to those rows.

  On the extended reals both spellings of a product are, entry by entry, the sum over the contracted index of the
  products of the operands' entries; an entry depends on one row of the left operand, so the ten blocks are the rows of
  the whole product, and they cover the output (Proof/RegionProducts.lean). Hence a region leaves its buffers as the one
  host dot_general would (Proof/KernelFold.lean), the kernel's run ends with every buffer at a fold of host operations
  only (Proof/KernelRun.lean), and that fold read at the result is the reference's own composition of the shared
  operations over the same arguments (Proof/KernelResult.lean, against the reference's run in Proof/RefRun.lean). No
  sum is re-associated across an infinity, nothing is cancelled or distributed, so the finiteness of the inputs is not
  used. The idealization of the kernel rewrote no operation, so there is nothing to preserve beyond the program's own
  text read on the extended reals.
-/
import proofs.«173720_j30021821399451_1_alg».proof.Defs
import proofs.«173720_j30021821399451_1_alg».proof.Proof.Gen.Kernel
import proofs.«173720_j30021821399451_1_alg».proof.Proof.Gen.Kernel.Frame
import proofs.«173720_j30021821399451_1_alg».proof.Proof.Gen.KernelIdeal
import proofs.«173720_j30021821399451_1_alg».proof.Proof.Gen.KernelIdeal.Frame
import proofs.«173720_j30021821399451_1_alg».proof.Proof.Gen.ReferenceIdeal
import proofs.«173720_j30021821399451_1_alg».proof.Proof.Gen.Pre_finite_inputs
import proofs.«173720_j30021821399451_1_alg».proof.Proof.RefRun
import proofs.«173720_j30021821399451_1_alg».proof.Proof.KernelRun
import proofs.«173720_j30021821399451_1_alg».proof.Proof.KernelResult
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten when the kernel was read on the extended reals. -/
theorem preserves : Cert.preserves_Kernel_KernelIdeal := trivial

/-- From memories that agree on the seven arguments both programs end with the same 512 × 2 array of per-graph means:
    the kernel's is the last boundary's contents at the result buffer, and that is the reference's composed term. -/
theorem algebraic : Cert.algebraic_KernelIdeal_ReferenceIdeal := by
  intro m ρ m' ρ' _ hagree
  refine ⟨fun c => Cert.KernelIdeal.Gen.W10 m ρ c (Proc.devRef .tc Cert.KernelIdeal.main_v102), ?_, ?_⟩
  · refine Cert.KernelIdeal.Run.run_read m ρ (fun s h c => ?_)
    exact ⟨h c _ (Cert.KernelIdeal.Gen.mem_uc Cert.KernelIdeal.main_v102 (by decide)),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c)⟩
  · refine (θ_run Cert.ReferenceIdeal.defs _ _).mono (fun _ h c => ⟨(h c).1.trans ?_, (h c).2⟩)
      (Cert.ReferenceIdeal.ValueP.run (F := Ideal) m' ρ')
    exact (Cert.KernelIdeal.Result.result_eq m ρ c m' (hagree c).1 (hagree c).2.1 (hagree c).2.2.1 (hagree c).2.2.2.1
      (hagree c).2.2.2.2.1 (hagree c).2.2.2.2.2.1 (hagree c).2.2.2.2.2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
